-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64x64 : Shape := ⟨3, ![4096, 64, 64]⟩
abbrev S64 : Shape := ⟨1, ![64]⟩
abbrev S4096 : Shape := ⟨1, ![4096]⟩
abbrev S_ : Shape := ⟨0, ![]⟩

class Facts : Prop where
  bcast_S_S4096x64x64 : S_.BroadcastsInDim S4096x64x64 (![] : Fin 0 → Fin S4096x64x64.rank)
  reducesTo_S4096x64x64_S_d0_1_2 : S4096x64x64.ReducesTo [0, 1, 2] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_v13 : IVec S_ 1) (main_v16 : IVec S4096x64x64 1) : IVec S_ 1 :=
  let main_c_5 : IVec S_ 1 := constantI S_ 1 1#1
  let main_v17 : IVec S_ 1 := (fun x v => Host.reduce IntOp.andi x v reducesTo_S4096x64x64_S_d0_1_2 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S4096x64x64 .f32) (main_arg1 : FVec F S4096x64x64 .f32) (main_arg2 : FVec F S4096x64x64 .f32) (main_arg3 : FVec F S4096x64x64 .f32) (main_arg4 : FVec F S64 .f32) (main_arg5 : FVec F S64 .f32) (main_arg6 : IVec S4096 32) (main_arg7 : IVec S4096 32) : IVec S_ 1 :=
  let main_v0 : FVec F S4096x64x64 .f32 := Host.absf main_arg0
  let main_cst : FVec F S_ .f32 := constant S_ .f32 0x7F800000#32
  let main_v1 : FVec F S4096x64x64 .f32 := broadcastInDim S4096x64x64 ![] bcast_S_S4096x64x64 main_cst
  let main_v2 : IVec S4096x64x64 1 := cmpf .olt main_v0 main_v1
  let main_c : IVec S_ 1 := constantI S_ 1 1#1
  let main_v3 : IVec S_ 1 := (fun x v => Host.reduce IntOp.andi x v reducesTo_S4096x64x64_S_d0_1_2 h_S_) main_v2 main_c
  let main_v4 : FVec F S4096x64x64 .f32 := Host.absf main_arg1
  let main_cst_0 : FVec F S_ .f32 := constant S_ .f32 0x7F800000#32
  let main_v5 : FVec F S4096x64x64 .f32 := broadcastInDim S4096x64x64 ![] bcast_S_S4096x64x64 main_cst_0
  let main_v6 : IVec S4096x64x64 1 := cmpf .olt main_v4 main_v5
  let main_c_1 : IVec S_ 1 := constantI S_ 1 1#1
  let main_v7 : IVec S_ 1 := (fun x v => Host.reduce IntOp.andi x v reducesTo_S4096x64x64_S_d0_1_2 h_S_) main_v6 main_c_1
  let main_v8 : IVec S_ 1 := andi main_v3 main_v7
  let main_v9 : FVec F S4096x64x64 .f32 := Host.absf main_arg2
  let main_cst_2 : FVec F S_ .f32 := constant S_ .f32 0x7F800000#32
  let main_v10 : FVec F S4096x64x64 .f32 := broadcastInDim S4096x64x64 ![] bcast_S_S4096x64x64 main_cst_2
  let main_v11 : IVec S4096x64x64 1 := cmpf .olt main_v9 main_v10
  let main_c_3 : IVec S_ 1 := constantI S_ 1 1#1
  let main_v12 : IVec S_ 1 := (fun x v => Host.reduce IntOp.andi x v reducesTo_S4096x64x64_S_d0_1_2 h_S_) main_v11 main_c_3
  let main_v13 : IVec S_ 1 := andi main_v8 main_v12
  let main_v14 : FVec F S4096x64x64 .f32 := Host.absf main_arg3
  let main_cst_4 : FVec F S_ .f32 := constant S_ .f32 0x7F800000#32
  let main_v15 : FVec F S4096x64x64 .f32 := broadcastInDim S4096x64x64 ![] bcast_S_S4096x64x64 main_cst_4
  let main_v16 : IVec S4096x64x64 1 := cmpf .olt main_v14 main_v15
  fn_part1 (F := F) main_arg4 main_arg5 main_v13 main_v16
-- ==== Kernel.lean ====
abbrev S4096x64x64 : Shape := ⟨3, ![4096, 64, 64]⟩
abbrev S64 : Shape := ⟨1, ![64]⟩
abbrev S4096 : Shape := ⟨1, ![4096]⟩
abbrev S1x64 : Shape := ⟨2, ![1, 64]⟩
abbrev S4096x1 : Shape := ⟨2, ![4096, 1]⟩
abbrev S4096x64 : Shape := ⟨2, ![4096, 64]⟩
abbrev S4096x64x128 : Shape := ⟨3, ![4096, 64, 128]⟩
abbrev S64x64x64 : Shape := ⟨3, ![64, 64, 64]⟩
abbrev S64x64 : Shape := ⟨2, ![64, 64]⟩
abbrev S64x64x128 : Shape := ⟨3, ![64, 64, 128]⟩
abbrev S64x64x1 : Shape := ⟨3, ![64, 64, 1]⟩
abbrev S64x1x64 : Shape := ⟨3, ![64, 1, 64]⟩
abbrev S64x64x64x1 : Shape := ⟨4, ![64, 64, 64, 1]⟩
abbrev S64x64x64x2 : Shape := ⟨4, ![64, 64, 64, 2]⟩
abbrev S4096x64x64x2 : Shape := ⟨4, ![4096, 64, 64, 2]⟩

abbrev nBuf : Space → Nat
  | .hbm => 27
  | .vmem => 16
  | .smem => 0
  | _ => 0

abbrev bufTy : (tb : Table) → Fin (tcTables nBuf tb) → BufTy
  | .hbm, ⟨0, _⟩ => ⟨S4096x64x64, .f32⟩
  | .hbm, ⟨1, _⟩ => ⟨S4096x64x64, .f32⟩
  | .hbm, ⟨2, _⟩ => ⟨S4096x64x64, .f32⟩
  | .hbm, ⟨3, _⟩ => ⟨S4096x64x64, .f32⟩
  | .hbm, ⟨4, _⟩ => ⟨S64, .f32⟩
  | .hbm, ⟨5, _⟩ => ⟨S64, .f32⟩
  | .hbm, ⟨6, _⟩ => ⟨S4096, .i32⟩
  | .hbm, ⟨7, _⟩ => ⟨S4096, .i32⟩
  | .hbm, ⟨8, _⟩ => ⟨S4096, .f32⟩
  | .hbm, ⟨9, _⟩ => ⟨S64, .f32⟩
  | .hbm, ⟨10, _⟩ => ⟨S1x64, .f32⟩
  | .hbm, ⟨11, _⟩ => ⟨S1x64, .f32⟩
  | .hbm, ⟨12, _⟩ => ⟨S4096x1, .f32⟩
  | .hbm, ⟨13, _⟩ => ⟨S4096x64, .f32⟩
  | .hbm, ⟨14, _⟩ => ⟨S4096x64, .f32⟩
  | .hbm, ⟨15, _⟩ => ⟨S4096x64, .f32⟩
  | .hbm, ⟨16, _⟩ => ⟨S4096x64, .f32⟩
  | .hbm, ⟨17, _⟩ => ⟨S1x64, .f32⟩
  | .hbm, ⟨18, _⟩ => ⟨S4096x1, .f32⟩
  | .hbm, ⟨19, _⟩ => ⟨S4096x64, .f32⟩
  | .hbm, ⟨20, _⟩ => ⟨S4096x64, .f32⟩
  | .hbm, ⟨21, _⟩ => ⟨S4096x64, .f32⟩
  | .hbm, ⟨22, _⟩ => ⟨S4096x64, .f32⟩
  | .hbm, ⟨23, _⟩ => ⟨S4096x64, .f32⟩
  | .hbm, ⟨24, _⟩ => ⟨S4096x64x128, .f32⟩
  | .hbm, ⟨25, _⟩ => ⟨S4096x64x64x2, .f32⟩
  | .hbm, ⟨26, _⟩ => ⟨S4096, .i32⟩
  | .local _ .vmem, ⟨0, _⟩ => ⟨S64x64x64, .f32⟩
  | .local _ .vmem, ⟨1, _⟩ => ⟨S64x64x64, .f32⟩
  | .local _ .vmem, ⟨2, _⟩ => ⟨S64x64x64, .f32⟩
  | .local _ .vmem, ⟨3, _⟩ => ⟨S64x64x64, .f32⟩
  | .local _ .vmem, ⟨4, _⟩ => ⟨S64x64x64, .f32⟩
  | .local _ .vmem, ⟨5, _⟩ => ⟨S64x64x64, .f32⟩
  | .local _ .vmem, ⟨6, _⟩ => ⟨S64x64x64, .f32⟩
  | .local _ .vmem, ⟨7, _⟩ => ⟨S64x64x64, .f32⟩
  | .local _ .vmem, ⟨8, _⟩ => ⟨S64x64, .f32⟩
  | .local _ .vmem, ⟨9, _⟩ => ⟨S64x64, .f32⟩
  | .local _ .vmem, ⟨10, _⟩ => ⟨S64x64, .f32⟩
  | .local _ .vmem, ⟨11, _⟩ => ⟨S64x64, .f32⟩
  | .local _ .vmem, ⟨12, _⟩ => ⟨S64x64, .f32⟩
  | .local _ .vmem, ⟨13, _⟩ => ⟨S64x64, .f32⟩
  | .local _ .vmem, ⟨14, _⟩ => ⟨S64x64x128, .f32⟩
  | .local _ .vmem, ⟨15, _⟩ => ⟨S64x64x128, .f32⟩
  | _, _ => ⟨S4096x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S64_S1x64_1 : S64.BroadcastsInDim S1x64 (![1] : Fin 1 → Fin S1x64.rank)
  bcast_S4096_S4096x1_0 : S4096.BroadcastsInDim S4096x1 (![0] : Fin 1 → Fin S4096x1.rank)
  bcast_S1x64_S4096x64_0_1 : S1x64.BroadcastsInDim S4096x64 (![0, 1] : Fin 2 → Fin S4096x64.rank)
  bcast_S4096x1_S4096x64_0_1 : S4096x1.BroadcastsInDim S4096x64 (![0, 1] : Fin 2 → Fin S4096x64.rank)
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S64x64_S64x64x1 : S64x64.ShapeCasts S64x64x1
  shapeCasts_S64x64_S64x1x64 : S64x64.ShapeCasts S64x1x64
  broadcasts_S64x64x1_S64x64x64 : S64x64x1.Broadcasts S64x64x64
  broadcasts_S64x1x64_S64x64x64 : S64x1x64.Broadcasts S64x64x64
  inb_S64x64x64_S64x64x64_0_0_0 : ∀ a, (![0, 0, 0] : Fin 3 → Nat) a + S64x64x64.size a ≤ S64x64x64.size a
  h_S64x64x64 : 0 < S64x64x64.numel
  shapeCasts_S64x64x64_S64x64x64x1 : S64x64x64.ShapeCasts S64x64x64x1
  concatenates_S64x64x64x1_S64x64x64x1_S64x64x64x2_d3 : Shape.Concatenates [S64x64x64x1, S64x64x64x1] S64x64x64x2 3
  shapeCasts_S64x64x64x2_S64x64x128 : S64x64x64x2.ShapeCasts S64x64x128
  inb_S64x64x128_S64x64x128_0_0_0 : ∀ a, (![0, 0, 0] : Fin 3 → Nat) a + S64x64x128.size a ≤ S64x64x128.size a
  h_S64x64x128 : 0 < S64x64x128.numel
  shapeCasts_S4096x64x128_S4096x64x64x2 : S4096x64x128.ShapeCasts S4096x64x64x2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64x64.size a ≤ S4096x64x64.size a
  hwx0_0 : ∀ i : grid0.Coords, EltTy.bits .f32 = 32 ∨ (Rect.block (s := S4096x64x64) S64x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x64x64.size a ≤ S4096x64x64.size a
  hwx0_1 : ∀ i : grid0.Coords, EltTy.bits .f32 = 32 ∨ (Rect.block (s := S4096x64x64) S64x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x64x64.size a ≤ S4096x64x64.size a
  hwx0_2 : ∀ i : grid0.Coords, EltTy.bits .f32 = 32 ∨ (Rect.block (s := S4096x64x64) S64x64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x64x64.size a ≤ S4096x64x64.size a
  hwx0_3 : ∀ i : grid0.Coords, EltTy.bits .f32 = 32 ∨ (Rect.block (s := S4096x64x64) S64x64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S4096x64.size a
  hwx0_4 : ∀ i : grid0.Coords, EltTy.bits .f32 = 32 ∨ (Rect.block (s := S4096x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S4096x64.size a
  hwx0_5 : ∀ i : grid0.Coords, EltTy.bits .f32 = 32 ∨ (Rect.block (s := S4096x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S4096x64.size a
  hwx0_6 : ∀ i : grid0.Coords, EltTy.bits .f32 = 32 ∨ (Rect.block (s := S4096x64) S64x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x64x128.size a ≤ S4096x64x128.size a
  hwx0_7 : ∀ i : grid0.Coords, EltTy.bits .f32 = 32 ∨ (Rect.block (s := S4096x64x128) S64x64x128.size (cc0_transform_7 i) (hinb0_7 i)).WholeWords (EltTy.packing .f32)

variable [Facts₀]

abbrev win0_0 : Pipeline.Window sig grid0 :=
  Pipeline.Window.ofSpec (Memref.whole main_arg0) S64x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S64x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14) S64x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v15) S64x64.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v16) S64x64x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x64x64 : Shape := ⟨3, ![4096, 64, 64]⟩
abbrev S64 : Shape := ⟨1, ![64]⟩
abbrev S4096 : Shape := ⟨1, ![4096]⟩
abbrev S4096x1x1 : Shape := ⟨3, ![4096, 1, 1]⟩
abbrev S1x64x1 : Shape := ⟨3, ![1, 64, 1]⟩
abbrev S4096x64x1 : Shape := ⟨3, ![4096, 64, 1]⟩
abbrev S1x1x64 : Shape := ⟨3, ![1, 1, 64]⟩
abbrev S4096x1x64 : Shape := ⟨3, ![4096, 1, 64]⟩
abbrev S4096x64x64x1 : Shape := ⟨4, ![4096, 64, 64, 1]⟩
abbrev S4096x64x64x2 : Shape := ⟨4, ![4096, 64, 64, 2]⟩

abbrev nBuf : Space → Nat
  | .hbm => 41
  | .vmem => 0
  | .smem => 0
  | _ => 0

abbrev bufTy : (tb : Table) → Fin (tcTables nBuf tb) → BufTy
  | .hbm, ⟨0, _⟩ => ⟨S4096x64x64, .f32⟩
  | .hbm, ⟨1, _⟩ => ⟨S4096x64x64, .f32⟩
  | .hbm, ⟨2, _⟩ => ⟨S4096x64x64, .f32⟩
  | .hbm, ⟨3, _⟩ => ⟨S4096x64x64, .f32⟩
  | .hbm, ⟨4, _⟩ => ⟨S64, .f32⟩
  | .hbm, ⟨5, _⟩ => ⟨S64, .f32⟩
  | .hbm, ⟨6, _⟩ => ⟨S4096, .i32⟩
  | .hbm, ⟨7, _⟩ => ⟨S4096, .i32⟩
  | .hbm, ⟨8, _⟩ => ⟨S4096, .f32⟩
  | .hbm, ⟨9, _⟩ => ⟨S4096x1x1, .f32⟩
  | .hbm, ⟨10, _⟩ => ⟨S64, .f32⟩
  | .hbm, ⟨11, _⟩ => ⟨S1x64x1, .f32⟩
  | .hbm, ⟨12, _⟩ => ⟨S1x64x1, .f32⟩
  | .hbm, ⟨13, _⟩ => ⟨S4096x64x1, .f32⟩
  | .hbm, ⟨14, _⟩ => ⟨S4096x64x1, .f32⟩
  | .hbm, ⟨15, _⟩ => ⟨S4096x64x1, .f32⟩
  | .hbm, ⟨16, _⟩ => ⟨S4096x64x1, .f32⟩
  | .hbm, ⟨17, _⟩ => ⟨S1x1x64, .f32⟩
  | .hbm, ⟨18, _⟩ => ⟨S4096x1x64, .f32⟩
  | .hbm, ⟨19, _⟩ => ⟨S4096x1x64, .f32⟩
  | .hbm, ⟨20, _⟩ => ⟨S4096x1x64, .f32⟩
  | .hbm, ⟨21, _⟩ => ⟨S4096x1x64, .f32⟩
  | .hbm, ⟨22, _⟩ => ⟨S4096x64x64, .f32⟩
  | .hbm, ⟨23, _⟩ => ⟨S4096x64x64, .f32⟩
  | .hbm, ⟨24, _⟩ => ⟨S4096x64x64, .f32⟩
  | .hbm, ⟨25, _⟩ => ⟨S4096x1x64, .f32⟩
  | .hbm, ⟨26, _⟩ => ⟨S4096x64x64, .f32⟩
  | .hbm, ⟨27, _⟩ => ⟨S4096x64x64, .f32⟩
  | .hbm, ⟨28, _⟩ => ⟨S4096x64x64, .f32⟩
  | .hbm, ⟨29, _⟩ => ⟨S4096x64x64, .f32⟩
  | .hbm, ⟨30, _⟩ => ⟨S4096x64x64, .f32⟩
  | .hbm, ⟨31, _⟩ => ⟨S4096x64x64, .f32⟩
  | .hbm, ⟨32, _⟩ => ⟨S4096x64x64, .f32⟩
  | .hbm, ⟨33, _⟩ => ⟨S4096x64x64, .f32⟩
  | .hbm, ⟨34, _⟩ => ⟨S4096x64x64, .f32⟩
  | .hbm, ⟨35, _⟩ => ⟨S4096x64x64, .f32⟩
  | .hbm, ⟨36, _⟩ => ⟨S4096x64x64, .f32⟩
  | .hbm, ⟨37, _⟩ => ⟨S4096x64x64x1, .f32⟩
  | .hbm, ⟨38, _⟩ => ⟨S4096x64x64x1, .f32⟩
  | .hbm, ⟨39, _⟩ => ⟨S4096x64x64x2, .f32⟩
  | .hbm, ⟨40, _⟩ => ⟨S4096, .i32⟩
  | _, _ => ⟨S4096x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]

class Facts₀ : Prop where
  bcast_S4096_S4096x1x1_0 : S4096.BroadcastsInDim S4096x1x1 (![0] : Fin 1 → Fin S4096x1x1.rank)
  bcast_S64_S1x64x1_1 : S64.BroadcastsInDim S1x64x1 (![1] : Fin 1 → Fin S1x64x1.rank)
  bcast_S1x64x1_S4096x64x1_0_1_2 : S1x64x1.BroadcastsInDim S4096x64x1 (![0, 1, 2] : Fin 3 → Fin S4096x64x1.rank)
  bcast_S4096x1x1_S4096x64x1_0_1_2 : S4096x1x1.BroadcastsInDim S4096x64x1 (![0, 1, 2] : Fin 3 → Fin S4096x64x1.rank)
  bcast_S64_S1x1x64_2 : S64.BroadcastsInDim S1x1x64 (![2] : Fin 1 → Fin S1x1x64.rank)
  bcast_S1x1x64_S4096x1x64_0_1_2 : S1x1x64.BroadcastsInDim S4096x1x64 (![0, 1, 2] : Fin 3 → Fin S4096x1x64.rank)
  bcast_S4096x1x1_S4096x1x64_0_1_2 : S4096x1x1.BroadcastsInDim S4096x1x64 (![0, 1, 2] : Fin 3 → Fin S4096x1x64.rank)
  bcast_S4096x64x1_S4096x64x64_0_1_2 : S4096x64x1.BroadcastsInDim S4096x64x64 (![0, 1, 2] : Fin 3 → Fin S4096x64x64.rank)
  bcast_S4096x1x64_S4096x64x64_0_1_2 : S4096x1x64.BroadcastsInDim S4096x64x64 (![0, 1, 2] : Fin 3 → Fin S4096x64x64.rank)
  bcast_S4096x64x64_S4096x64x64x1_0_1_2 : S4096x64x64.BroadcastsInDim S4096x64x64x1 (![0, 1, 2] : Fin 3 → Fin S4096x64x64x1.rank)
  concatenates_S4096x64x64x1_S4096x64x64x1_S4096x64x64x2_d3 : Shape.Concatenates [S4096x64x64x1, S4096x64x64x1] S4096x64x64x2 3

variable [Facts₀]

class Facts : Prop extends Facts₀ where

variable [Facts]
-- ==== Proof.Spec.lean ====
/-
  The specification: one damped-rotation step of a bank of complex states.

  A complex state s = (re, im) at time row t, trace r and context c is multiplied by
  γ = exp(−|a r| · τ) · (cos θ + i sin θ), with τ the time offset of row t read as a float and θ = b c · τ, and the
  complex input x is added:
      re' = (re · g_re − im · g_im) + x_re,      im' = (re · g_im + im · g_re) + x_im,
  where g_re = decay · cos θ and g_im = decay · sin θ. The result array stacks (re', im') along a new last axis of
  extent 2. Everything is written with the float operations in exactly this order and grouping, for any float
  instance: no algebraic law is used anywhere, the two programs differ only in how the arrays are laid out.
-/
import Idealize.ShloMosaic.PureOps.Ideal
import Idealize.ShloMosaic.Lib.ValueIdx

noncomputable section

namespace Cert.Spec

open Idealize.ShloMosaic Idealize.ShloMosaic.ValueIdx

variable {F : FTy → Type} [FloatOps F]

/-- A [4096, 64, 64] float array. -/
abbrev Cube (F : FTy → Type) : Type := (⟨3, ![4096, 64, 64]⟩ : Shape).Idx → F .f32
/-- A [64] float vector. -/
abbrev Row (F : FTy → Type) : Type := (⟨1, ![64]⟩ : Shape).Idx → F .f32
/-- The [4096] vector of integer time offsets. -/
abbrev Offs : Type := (⟨1, ![4096]⟩ : Shape).Idx → BitVec 32

/-- The time offset of row `t`, as a float. -/
def tau (j : Offs) (t : Fin 4096) : F .f32 := FloatOps.sitofp .f32 (j (ix1 t))

/-- The decay factor exp((−|a r|) · τ). -/
def decay (a : Row F) (j : Offs) (t : Fin 4096) (r : Fin 64) : F .f32 :=
  FloatOps.hostUnary .exp (FloatOps.mulf (FloatOps.hostNegf (FloatOps.hostAbsf (a (ix1 r)))) (tau j t))

/-- The rotation angle θ = b c · τ. -/
def theta (b : Row F) (j : Offs) (t : Fin 4096) (c : Fin 64) : F .f32 := FloatOps.mulf (b (ix1 c)) (tau j t)

/-- The real part of γ: decay · cos θ. -/
def gRe (a b : Row F) (j : Offs) (t : Fin 4096) (r c : Fin 64) : F .f32 :=
  FloatOps.mulf (decay a j t r) (FloatOps.hostUnary .cos (theta b j t c))

/-- The imaginary part of γ: decay · sin θ. -/
def gIm (a b : Row F) (j : Offs) (t : Fin 4096) (r c : Fin 64) : F .f32 :=
  FloatOps.mulf (decay a j t r) (FloatOps.hostUnary .sin (theta b j t c))

/-- The new real part (re · g_re − im · g_im) + x_re. -/
def newRe (sre sim xre : Cube F) (a b : Row F) (j : Offs) (t : Fin 4096) (r c : Fin 64) : F .f32 :=
  FloatOps.addf (FloatOps.subf (FloatOps.mulf (sre (ix3 t r c)) (gRe a b j t r c)) (FloatOps.mulf (sim (ix3 t r c)) (gIm a b j t r c)))
    (xre (ix3 t r c))

/-- The new imaginary part (re · g_im + im · g_re) + x_im. -/
def newIm (sre sim xim : Cube F) (a b : Row F) (j : Offs) (t : Fin 4096) (r c : Fin 64) : F .f32 :=
  FloatOps.addf (FloatOps.addf (FloatOps.mulf (sre (ix3 t r c)) (gIm a b j t r c)) (FloatOps.mulf (sim (ix3 t r c)) (gRe a b j t r c)))
    (xim (ix3 t r c))

/-- Component `p` of the new state: the real part at 0, the imaginary part at 1. -/
def part (sre sim xre xim : Cube F) (a b : Row F) (j : Offs) (t : Fin 4096) (r c : Fin 64) (p : Fin 2) : F .f32 :=
  if p.val = 0 then newRe sre sim xre a b j t r c else newIm sre sim xim a b j t r c

/-- THE RESULT: the [4096, 64, 64, 2] array of new states, (re', im') along the last axis. -/
def stacked (sre sim xre xim : Cube F) (a b : Row F) (j : Offs) : (⟨4, ![4096, 64, 64, 2]⟩ : Shape).Idx → F .f32 :=
  fun i => part sre sim xre xim a b j (i 0) (i 1) (i 2) (i 3)

/-- The same numbers with the last two axes flattened: the [4096, 64, 128] array whose last axis interleaves
    (re'₀, im'₀, re'₁, im'₁, …) — position l holds component l mod 2 of context l / 2. -/
def interleaved (sre sim xre xim : Cube F) (a b : Row F) (j : Offs) : (⟨3, ![4096, 64, 128]⟩ : Shape).Idx → F .f32 :=
  fun i => part sre sim xre xim a b j (i 0) (i 1) ⟨(i 2).val / 2, by have : (i 2).val < 128 := (i 2).isLt; omega⟩
    ⟨(i 2).val % 2, Nat.mod_lt _ (by decide)⟩

/-- The stacked array at an index given by its coordinates. -/
theorem stacked_apply (sre sim xre xim : Cube F) (a b : Row F) (j : Offs) (t : Fin 4096) (r c : Fin 64) (p : Fin 2) :
    stacked sre sim xre xim a b j (ix4 t r c p) = part sre sim xre xim a b j t r c p := rfl

/-- The interleaved array at position 2c + p of its last axis is component `p` at context `c`. -/
theorem interleaved_apply (sre sim xre xim : Cube F) (a b : Row F) (j : Offs) (t : Fin 4096) (r c : Fin 64) (p : Fin 2)
    (l : Fin 128) (hl : l.val = c.val * 2 + p.val) :
    interleaved sre sim xre xim a b j (ix3 t r l) = part sre sim xre xim a b j t r c p := by
  have hc : (⟨l.val / 2, by omega⟩ : Fin 64) = c := Fin.ext (by show l.val / 2 = c.val; omega)
  have hp : (⟨l.val % 2, Nat.mod_lt _ (by decide)⟩ : Fin 2) = p := Fin.ext (by show l.val % 2 = p.val; omega)
  show part sre sim xre xim a b j t r ⟨l.val / 2, _⟩ ⟨l.val % 2, _⟩ = _
  rw [hc, hp]

end Cert.Spec

end
-- ==== Proof.LibStackLast.lean ====
/-
  Layout operations of small rank read at an index written by its coordinates, for any element type.

  Two families. (1) The keep-dims forms of a rank-2 array inside a rank-3 one: an [a, b] array viewed as [a, b, 1] or as
  [a, 1, b], and those two spread along the unit axis to [a, b, c]. (2) STACKING TWO ARRAYS ALONG A NEW LAST AXIS AND
  FLATTENING IT: an [a, b, c] array viewed as [a, b, c, 1], two such joined along the last axis to [a, b, c, 2], and
  that array flattened to [a, b, 2c] (or a flat [a, b, 2c] array split back to [a, b, c, 2]): position 2k + p of the
  flat last axis holds entry k of piece p. This is how an interleaved (first, second, first, second, …) last axis is
  produced and read back.
-/
import Idealize.ShloMosaic.Lib.Pipeline.Value
import Idealize.ShloMosaic.Lib.ValueIdx

noncomputable section

namespace Cert.LibStackLast

open Idealize.ShloMosaic Idealize.ShloMosaic.ValueIdx

variable {α : Type}

/-! ## A rank-2 array inside a rank-3 one -/

/-- An [a, b] array viewed as [a, b, 1] reads, at (i, j, u), the entry (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b] array viewed as [a, 1, b] reads, at (i, u, j), the entry (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An [a, b, 1] array spread to [a, b, c] reads, at (i, j, k), its entry (i, j, 0): every position of the last axis
    holds the same value. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An [a, 1, c] array spread to [a, b, c] reads, at (i, j, k), its entry (i, 0, k): every position of the middle axis
    holds the same value. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-! ## Two arrays stacked along a new last axis, and that axis flattened -/

/-- An [a, b, c] array viewed as [a, b, c, 1] reads, at (i, j, k, u), the entry (i, j, k). -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_four, Shape.rowMajor_val_three]
    show (i.val * b + j.val) * c + k.val = ((i.val * b + j.val) * c + k.val) * 1 + u.val
    rw [hu, Nat.mul_one, Nat.add_zero])

/-- Two [a, b, c, 1] arrays joined along the last axis: position 0 of that axis reads the first, position 1 the
    second. -/
theorem concatenate_last_pair_apply {a b c : ℕ} (x₁ x₂ : (⟨4, ![a, b, c, 1]⟩ : Shape).Idx → α)
    (h : Shape.Concatenates [(⟨4, ![a, b, c, 1]⟩ : Shape), ⟨4, ![a, b, c, 1]⟩] ⟨4, ![a, b, c, 2]⟩ 3)
    (i : Fin a) (j : Fin b) (k : Fin c) (p : Fin 2) :
    concatenate ⟨4, ![a, b, c, 2]⟩ 3 [⟨⟨4, ![a, b, c, 1]⟩, x₁⟩, ⟨⟨4, ![a, b, c, 1]⟩, x₂⟩] h (ix4 i j k p)
      = if p.val = 0 then x₁ (ix4 i j k (0 : Fin 1)) else x₂ (ix4 i j k (0 : Fin 1)) := by
  split
  · rename_i hp
    exact concatenate_pair_apply_left 3 x₁ x₂ h _ rfl _ (fun d => by
      match d with
      | ⟨0, _⟩ => rfl
      | ⟨1, _⟩ => rfl
      | ⟨2, _⟩ => rfl
      | ⟨3, _⟩ => exact hp.symm)
  · rename_i hp
    have hp1 : p.val = 1 := by omega
    exact concatenate_pair_apply_right 3 x₁ x₂ h _ rfl rfl _ (fun d hd => by
      match d with
      | ⟨0, _⟩ => rfl
      | ⟨1, _⟩ => rfl
      | ⟨2, _⟩ => rfl
      | ⟨3, _⟩ => exact absurd rfl hd) (by show 0 + 1 = p.val; omega)

/-- An [a, b, c, 2] array flattened to [a, b, n], n = 2c: position 2k + p of the flat axis reads the entry (k, p). -/
theorem shapeCast_abc2_abn_apply {a b c n : ℕ} (x : (⟨4, ![a, b, c, 2]⟩ : Shape).Idx → α)
    (h : (⟨4, ![a, b, c, 2]⟩ : Shape).ShapeCasts ⟨3, ![a, b, n]⟩) (hn : n = c * 2)
    (i : Fin a) (j : Fin b) (l : Fin n) (k : Fin c) (p : Fin 2) (hl : l.val = k.val * 2 + p.val) :
    shapeCast ⟨3, ![a, b, n]⟩ x h (ix3 i j l) = x (ix4 i j k p) :=
  shapeCast_apply x h _ _ (by
    rw [Shape.rowMajor_val_four, Shape.rowMajor_val_three]
    show ((i.val * b + j.val) * c + k.val) * 2 + p.val = (i.val * b + j.val) * n + l.val
    rw [hl, hn]; ring)

/-- A flat [a, b, n] array, n = 2c, split to [a, b, c, 2]: the entry (k, p) reads position 2k + p of the flat axis. -/
theorem shapeCast_abn_abc2_apply {a b c n : ℕ} (x : (⟨3, ![a, b, n]⟩ : Shape).Idx → α)
    (h : (⟨3, ![a, b, n]⟩ : Shape).ShapeCasts ⟨4, ![a, b, c, 2]⟩) (hn : n = c * 2)
    (i : Fin a) (j : Fin b) (k : Fin c) (p : Fin 2) (l : Fin n) (hl : l.val = k.val * 2 + p.val) :
    shapeCast ⟨4, ![a, b, c, 2]⟩ x h (ix4 i j k p) = x (ix3 i j l) :=
  shapeCast_apply x h _ _ (by
    rw [Shape.rowMajor_val_four, Shape.rowMajor_val_three]
    show (i.val * b + j.val) * n + l.val = ((i.val * b + j.val) * c + k.val) * 2 + p.val
    rw [hl, hn]; ring)

end Cert.LibStackLast

end
-- ==== Proof.RefIsSpec.lean ====
/-
  The reference computes the specification.

  Read one operation at a time, the reference broadcasts the time offsets, |a| and b to three axes, forms the decay
  exp((−|a|) · τ) on [4096, 64, 1] and the angle b · τ on [4096, 1, 64], spreads both to [4096, 64, 64], takes the two
  products with cos and sin, does the complex multiply-add elementwise and joins the two results along a new last
  axis. At an index (t, r, c, p) each broadcast only drops or repeats coordinates, so the value is the
  specification's `part` at (t, r, c, p), operation for operation.
-/
import proofs.«132023_j47665547051502_2_alg».proof.Proof.Gen.ReferenceIdeal.Read
import proofs.«132023_j47665547051502_2_alg».proof.Proof.Spec
import proofs.«132023_j47665547051502_2_alg».proof.Proof.LibStackLast

noncomputable section

namespace Cert.RefIsSpec

open Idealize.ShloMosaic Idealize.ShloMosaic.ValueIdx Cert.ReferenceIdeal Cert.ReferenceIdeal.Read Cert.Spec

variable {F : FTy → Type} [FloatOps F]

/-! ## Where each broadcast reads its operand -/

theorem idx1 (t : Fin 4096) (u v : Fin 1) : idx_main_v1 (ix3 t u v) = ix1 t :=
  funext fun a => match a with | ⟨0, _⟩ => rfl
theorem idx3 (u : Fin 1) (r : Fin 64) (v : Fin 1) : idx_main_v3 (ix3 u r v) = ix1 r :=
  funext fun a => match a with | ⟨0, _⟩ => rfl
theorem idx5 (t : Fin 4096) (r : Fin 64) (v : Fin 1) : idx_main_v5 (ix3 t r v) = ix3 (0 : Fin 1) r (0 : Fin 1) :=
  funext fun a => match a with | ⟨0, _⟩ => rfl | ⟨1, _⟩ => rfl | ⟨2, _⟩ => rfl
theorem idx6 (t : Fin 4096) (r : Fin 64) (v : Fin 1) : idx_main_v6 (ix3 t r v) = ix3 t (0 : Fin 1) (0 : Fin 1) :=
  funext fun a => match a with | ⟨0, _⟩ => rfl | ⟨1, _⟩ => rfl | ⟨2, _⟩ => rfl
theorem idx9 (u v : Fin 1) (c : Fin 64) : idx_main_v9 (ix3 u v c) = ix1 c :=
  funext fun a => match a with | ⟨0, _⟩ => rfl
theorem idx10 (t : Fin 4096) (u : Fin 1) (c : Fin 64) : idx_main_v10 (ix3 t u c) = ix3 (0 : Fin 1) (0 : Fin 1) c :=
  funext fun a => match a with | ⟨0, _⟩ => rfl | ⟨1, _⟩ => rfl | ⟨2, _⟩ => rfl
theorem idx11 (t : Fin 4096) (u : Fin 1) (c : Fin 64) : idx_main_v11 (ix3 t u c) = ix3 t (0 : Fin 1) (0 : Fin 1) :=
  funext fun a => match a with | ⟨0, _⟩ => rfl | ⟨1, _⟩ => rfl | ⟨2, _⟩ => rfl
theorem idx14 (t : Fin 4096) (r c : Fin 64) : idx_main_v14 (ix3 t r c) = ix3 t r (0 : Fin 1) :=
  funext fun a => match a with | ⟨0, _⟩ => rfl | ⟨1, _⟩ => rfl | ⟨2, _⟩ => rfl
theorem idx15 (t : Fin 4096) (r c : Fin 64) : idx_main_v15 (ix3 t r c) = ix3 t (0 : Fin 1) c :=
  funext fun a => match a with | ⟨0, _⟩ => rfl | ⟨1, _⟩ => rfl | ⟨2, _⟩ => rfl
theorem idx18 (t : Fin 4096) (r c : Fin 64) : idx_main_v18 (ix3 t r c) = ix3 t r (0 : Fin 1) :=
  funext fun a => match a with | ⟨0, _⟩ => rfl | ⟨1, _⟩ => rfl | ⟨2, _⟩ => rfl
theorem idx19 (t : Fin 4096) (r c : Fin 64) : idx_main_v19 (ix3 t r c) = ix3 t (0 : Fin 1) c :=
  funext fun a => match a with | ⟨0, _⟩ => rfl | ⟨1, _⟩ => rfl | ⟨2, _⟩ => rfl
theorem idx29 (t : Fin 4096) (r c : Fin 64) (u : Fin 1) : idx_main_v29 (ix4 t r c u) = ix3 t r c :=
  funext fun a => match a with | ⟨0, _⟩ => rfl | ⟨1, _⟩ => rfl | ⟨2, _⟩ => rfl
theorem idx30 (t : Fin 4096) (r c : Fin 64) (u : Fin 1) : idx_main_v30 (ix4 t r c u) = ix3 t r c :=
  funext fun a => match a with | ⟨0, _⟩ => rfl | ⟨1, _⟩ => rfl | ⟨2, _⟩ => rfl

/-! ## The stages, read at an index -/

/-- The offsets broadcast to [4096, 1, 1] read τ of their row. -/
theorem tau_eq (j : Offs) (t : Fin 4096) (u v : Fin 1) : val_main_v1 (F := F) j (ix3 t u v) = tau j t := by
  rw [val_main_v1_apply, idx1, val_main_v0_apply]; rfl

/-- The [4096, 64, 1] decay. -/
theorem decay_eq (a : Row F) (j : Offs) (t : Fin 4096) (r : Fin 64) (v : Fin 1) :
    val_main_v8 (F := F) a j (ix3 t r v) = decay a j t r := by
  rw [val_main_v8_apply, val_main_v7_apply, val_main_v5_apply, idx5, val_main_v4_apply, val_main_v3_apply, idx3,
    val_main_v2_apply, val_main_v6_apply, idx6, tau_eq]
  rfl

/-- The [4096, 1, 64] angle. -/
theorem theta_eq (b : Row F) (j : Offs) (t : Fin 4096) (u : Fin 1) (c : Fin 64) :
    val_main_v12 (F := F) b j (ix3 t u c) = theta b j t c := by
  rw [val_main_v12_apply, val_main_v10_apply, idx10, val_main_v9_apply, idx9, val_main_v11_apply, idx11, tau_eq]
  rfl

/-- decay · cos θ on [4096, 64, 64]. -/
theorem gRe_eq (a b : Row F) (j : Offs) (t : Fin 4096) (r c : Fin 64) :
    val_main_v16 (F := F) a b j (ix3 t r c) = gRe a b j t r c := by
  rw [val_main_v16_apply, val_main_v14_apply, idx14, decay_eq, val_main_v15_apply, idx15, val_main_v13_apply, theta_eq]
  rfl

/-- decay · sin θ on [4096, 64, 64]. -/
theorem gIm_eq (a b : Row F) (j : Offs) (t : Fin 4096) (r c : Fin 64) :
    val_main_v20 (F := F) a b j (ix3 t r c) = gIm a b j t r c := by
  rw [val_main_v20_apply, val_main_v18_apply, idx18, decay_eq, val_main_v19_apply, idx19, val_main_v17_apply, theta_eq]
  rfl

/-- The new real part. -/
theorem newRe_eq (sre sim xre : Cube F) (a b : Row F) (j : Offs) (t : Fin 4096) (r c : Fin 64) :
    val_main_v24 (F := F) sre sim xre a b j (ix3 t r c) = newRe sre sim xre a b j t r c := by
  rw [val_main_v24_apply, val_main_v23_apply, val_main_v21_apply, val_main_v22_apply, gRe_eq, gIm_eq]
  rfl

/-- The new imaginary part. -/
theorem newIm_eq (sre sim xim : Cube F) (a b : Row F) (j : Offs) (t : Fin 4096) (r c : Fin 64) :
    val_main_v28 (F := F) sre sim xim a b j (ix3 t r c) = newIm sre sim xim a b j t r c := by
  rw [val_main_v28_apply, val_main_v27_apply, val_main_v25_apply, val_main_v26_apply, gRe_eq, gIm_eq]
  rfl

/-- THE REFERENCE'S RESULT is the stacked array of the specification. -/
theorem result_eq (sre sim xre xim : Cube F) (a b : Row F) (j : Offs) :
    val_main_v31 (F := F) sre sim xre xim a b j = stacked sre sim xre xim a b j := by
  funext i
  obtain ⟨t, r, c, p, rfl⟩ : ∃ (t : Fin 4096) (r c : Fin 64) (p : Fin 2), i = ix4 t r c p := ⟨i 0, i 1, i 2, i 3, eq_ix4 i⟩
  rw [stacked_apply]
  unfold val_main_v31
  refine (Cert.LibStackLast.concatenate_last_pair_apply _ _ _ t r c p).trans ?_
  unfold part
  rw [val_main_v29_apply, idx29, newRe_eq, val_main_v30_apply, idx30, newIm_eq]

end Cert.RefIsSpec

end
-- ==== Proof.KernelPoint.lean ====
/-
  What the kernel body computes at one element of its output block.

  The body loads a 64-row tile of each operand: the decay tile d and the cos / sin tiles (each [64, 64]), and the four
  [64, 64, 64] tiles re, im, x_re, x_im. It views d as a column per (row, trace) spread over the contexts and cos / sin
  as a row per (row, context) spread over the traces, forms g_re = d · cos and g_im = d · sin, does the complex
  multiply-add, stacks (re', im') along a new last axis and flattens it. At position 2c + p of the flat last axis the
  stored value is component p at context c, with exactly the specification's operations.
-/
import proofs.«132023_j47665547051502_2_alg».proof.Proof.Gen.KernelIdeal.Skeleton
import proofs.«132023_j47665547051502_2_alg».proof.Proof.LibStackLast
import proofs.«132023_j47665547051502_2_alg».proof.Proof.Spec

noncomputable section

namespace Cert.KernelPoint

open Idealize.ShloMosaic Idealize.ShloMosaic.ValueIdx Cert.KernelIdeal Cert.KernelIdeal.Gen Cert.LibStackLast

variable {F : FTy → Type} [FloatOps F]

/-- A [64, 64] tile indexed by (row, trace), viewed [64, 64, 1] and spread over the 64 contexts. -/
def colSpread (d : Vec F S64x64 .f32) : FVec F S64x64x64 .f32 :=
  broadcastTo S64x64x64 (shapeCast S64x64x1 (shapeCast S64x64 d shapeCasts_S64x64_S64x64) shapeCasts_S64x64_S64x64x1)
    broadcasts_S64x64x1_S64x64x64

/-- A [64, 64] tile indexed by (row, context), viewed [64, 1, 64] and spread over the 64 traces. -/
def rowSpread (x : Vec F S64x64 .f32) : FVec F S64x64x64 .f32 :=
  broadcastTo S64x64x64 (shapeCast S64x1x64 (shapeCast S64x64 x shapeCasts_S64x64_S64x64) shapeCasts_S64x64_S64x1x64)
    broadcasts_S64x1x64_S64x64x64

/-- The spread column reads, at (q, r, c), the tile's entry (q, r). -/
theorem colSpread_apply (d : Vec F S64x64 .f32) (q r c : Fin 64) : colSpread d (ix3 q r c) = d (ix2 q r) :=
  (broadcastTo_ab1_abc_apply _ _ q r c).trans ((shapeCast_ab_ab1_apply _ _ q r 0).trans
    (congrFun (shapeCast_self d shapeCasts_S64x64_S64x64) (ix2 q r)))

/-- The spread row reads, at (q, r, c), the tile's entry (q, c). -/
theorem rowSpread_apply (x : Vec F S64x64 .f32) (q r c : Fin 64) : rowSpread x (ix3 q r c) = x (ix2 q c) :=
  (broadcastTo_a1c_abc_apply _ _ q r c).trans ((shapeCast_ab_a1b_apply _ _ q 0 c).trans
    (congrFun (shapeCast_self x shapeCasts_S64x64_S64x64) (ix2 q c)))

/-- The tile of new real parts. -/
def tileRe (d cs sn : Vec F S64x64 .f32) (sre sim xre : Vec F S64x64x64 .f32) : FVec F S64x64x64 .f32 :=
  addf (subf (mulf sre (mulf (colSpread d) (rowSpread cs))) (mulf sim (mulf (colSpread d) (rowSpread sn)))) xre

/-- The tile of new imaginary parts. -/
def tileIm (d cs sn : Vec F S64x64 .f32) (sre sim xim : Vec F S64x64x64 .f32) : FVec F S64x64x64 .f32 :=
  addf (addf (mulf sre (mulf (colSpread d) (rowSpread sn))) (mulf sim (mulf (colSpread d) (rowSpread cs)))) xim

/-- The stored value is the two tiles stacked along a new last axis and flattened. -/
theorem pay_eq (d cs sn : Vec F S64x64 .f32) (sre sim xre xim : Vec F S64x64x64 .f32) :
    k0_pay1 d cs sn sre sim xre xim
      = shapeCast S64x64x128 (concatenate S64x64x64x2 3
          [⟨S64x64x64x1, shapeCast S64x64x64x1 (tileRe d cs sn sre sim xre) shapeCasts_S64x64x64_S64x64x64x1⟩,
           ⟨S64x64x64x1, shapeCast S64x64x64x1 (tileIm d cs sn sre sim xim) shapeCasts_S64x64x64_S64x64x64x1⟩]
          concatenates_S64x64x64x1_S64x64x64x1_S64x64x64x2_d3) shapeCasts_S64x64x64x2_S64x64x128 := rfl

/-- Component `p` of the complex multiply-add on tiles, at row `q`, trace `r`, context `c`. -/
def tilePart (d cs sn : Vec F S64x64 .f32) (sre sim xre xim : Vec F S64x64x64 .f32) (q r c : Fin 64) (p : Fin 2) : F .f32 :=
  if p.val = 0 then
    FloatOps.addf (FloatOps.subf (FloatOps.mulf (sre (ix3 q r c)) (FloatOps.mulf (d (ix2 q r)) (cs (ix2 q c))))
      (FloatOps.mulf (sim (ix3 q r c)) (FloatOps.mulf (d (ix2 q r)) (sn (ix2 q c))))) (xre (ix3 q r c))
  else
    FloatOps.addf (FloatOps.addf (FloatOps.mulf (sre (ix3 q r c)) (FloatOps.mulf (d (ix2 q r)) (sn (ix2 q c))))
      (FloatOps.mulf (sim (ix3 q r c)) (FloatOps.mulf (d (ix2 q r)) (cs (ix2 q c))))) (xim (ix3 q r c))

/-- The tile of real parts at (q, r, c). -/
theorem tileRe_apply (d cs sn : Vec F S64x64 .f32) (sre sim xre : Vec F S64x64x64 .f32) (q r c : Fin 64) :
    tileRe d cs sn sre sim xre (ix3 q r c)
      = FloatOps.addf (FloatOps.subf (FloatOps.mulf (sre (ix3 q r c)) (FloatOps.mulf (d (ix2 q r)) (cs (ix2 q c))))
          (FloatOps.mulf (sim (ix3 q r c)) (FloatOps.mulf (d (ix2 q r)) (sn (ix2 q c))))) (xre (ix3 q r c)) := by
  show FloatOps.addf (FloatOps.subf (FloatOps.mulf (sre (ix3 q r c)) (FloatOps.mulf (colSpread d (ix3 q r c)) (rowSpread cs (ix3 q r c))))
    (FloatOps.mulf (sim (ix3 q r c)) (FloatOps.mulf (colSpread d (ix3 q r c)) (rowSpread sn (ix3 q r c))))) (xre (ix3 q r c)) = _
  rw [colSpread_apply, rowSpread_apply, rowSpread_apply]

/-- The tile of imaginary parts at (q, r, c). -/
theorem tileIm_apply (d cs sn : Vec F S64x64 .f32) (sre sim xim : Vec F S64x64x64 .f32) (q r c : Fin 64) :
    tileIm d cs sn sre sim xim (ix3 q r c)
      = FloatOps.addf (FloatOps.addf (FloatOps.mulf (sre (ix3 q r c)) (FloatOps.mulf (d (ix2 q r)) (sn (ix2 q c))))
          (FloatOps.mulf (sim (ix3 q r c)) (FloatOps.mulf (d (ix2 q r)) (cs (ix2 q c))))) (xim (ix3 q r c)) := by
  show FloatOps.addf (FloatOps.addf (FloatOps.mulf (sre (ix3 q r c)) (FloatOps.mulf (colSpread d (ix3 q r c)) (rowSpread sn (ix3 q r c))))
    (FloatOps.mulf (sim (ix3 q r c)) (FloatOps.mulf (colSpread d (ix3 q r c)) (rowSpread cs (ix3 q r c))))) (xim (ix3 q r c)) = _
  rw [colSpread_apply, rowSpread_apply, rowSpread_apply]

/-- THE STORED TILE at position 2c + p of its flat last axis is component `p` at context `c`. -/
theorem pay_apply (d cs sn : Vec F S64x64 .f32) (sre sim xre xim : Vec F S64x64x64 .f32) (q r c : Fin 64) (p : Fin 2)
    (l : Fin 128) (hl : l.val = c.val * 2 + p.val) :
    k0_pay1 d cs sn sre sim xre xim (ix3 q r l) = tilePart d cs sn sre sim xre xim q r c p := by
  rw [pay_eq]
  refine (shapeCast_abc2_abn_apply (a := 64) (b := 64) (c := 64) (n := 128) _ _ (by rfl) q r l c p hl).trans ?_
  refine (concatenate_last_pair_apply _ _ _ q r c p).trans ?_
  unfold tilePart
  split
  · exact (shapeCast_abc_abc1_apply _ _ q r c 0).trans (tileRe_apply d cs sn sre sim xre q r c)
  · exact (shapeCast_abc_abc1_apply _ _ q r c 0).trans (tileIm_apply d cs sn sre sim xim q r c)

/-- When the tiles' entries are the specification's quantities at time row `T`, the tile's component is the
    specification's. -/
theorem tilePart_eq (d cs sn : Vec F S64x64 .f32) (sre sim xre xim : Vec F S64x64x64 .f32)
    (Sre Sim Xre Xim : Cert.Spec.Cube F) (a b : Cert.Spec.Row F) (j : Cert.Spec.Offs) (T : Fin 4096) (q r c : Fin 64) (p : Fin 2)
    (hd : d (ix2 q r) = Cert.Spec.decay a j T r)
    (hcs : cs (ix2 q c) = FloatOps.hostUnary .cos (Cert.Spec.theta b j T c))
    (hsn : sn (ix2 q c) = FloatOps.hostUnary .sin (Cert.Spec.theta b j T c))
    (h0 : sre (ix3 q r c) = Sre (ix3 T r c)) (h1 : sim (ix3 q r c) = Sim (ix3 T r c))
    (h2 : xre (ix3 q r c) = Xre (ix3 T r c)) (h3 : xim (ix3 q r c) = Xim (ix3 T r c)) :
    tilePart d cs sn sre sim xre xim q r c p = Cert.Spec.part Sre Sim Xre Xim a b j T r c p := by
  unfold tilePart Cert.Spec.part Cert.Spec.newRe Cert.Spec.newIm Cert.Spec.gRe Cert.Spec.gIm
  rw [hd, hcs, hsn, h0, h1, h2, h3]

end Cert.KernelPoint

end
-- ==== Proof.KernelHost.lean ====
/-
  The three tables the kernel's host code prepares before the launch, read at an index.

  Before the launch the host converts the time offsets to floats, forms the decay table exp((−|a r|) · τ_t) and the
  angle table b c · τ_t on [4096, 64] by two-axis broadcasts, and takes cos and sin of the angles. At (t, r) the
  decay table holds the specification's `decay` and at (t, c) the other two hold cos and sin of its `theta`: each
  broadcast only repeats a coordinate.
-/
import proofs.«132023_j47665547051502_2_alg».proof.Proof.Gen.KernelIdeal.Frame
import proofs.«132023_j47665547051502_2_alg».proof.Proof.Spec
import Idealize.ShloMosaic.Lib.Pipeline.Value
import Idealize.ShloMosaic.Lib.StableHlo.Run

noncomputable section

namespace Cert.KernelHost

open Idealize.ShloMosaic Idealize.ShloMosaic.TcCoe Idealize.ShloMosaic.ValueIdx Idealize.SL.Sem Idealize.ShloMosaic.StableHlo
open Cert.KernelIdeal Cert.KernelIdeal.Gen Cert.Spec

variable {F : FTy → Type} [FloatOps F]

/-! ## The four broadcasts, read at an index -/

section Broadcasts
variable {α : Type}

/-- A [64] vector laid along the second axis of [1, 64]. -/
theorem row_of_vec (y : S64.Idx → α) (u : Fin 1) (r : Fin 64) :
    broadcastInDim S1x64 ![1] bcast_S64_S1x64_1 y (ix2 u r) = y (ix1 r) :=
  broadcastInDim_apply _ bcast_S64_S1x64_1 y (ix2 u r) (ix1 r) (fun a => match a with
    | ⟨0, _⟩ => by show r.val = if (64 : Nat) = 1 then 0 else r.val; rw [if_neg (by decide)])

/-- A [4096] vector laid along the first axis of [4096, 1]. -/
theorem col_of_vec (y : S4096.Idx → α) (t : Fin 4096) (u : Fin 1) :
    broadcastInDim S4096x1 ![0] bcast_S4096_S4096x1_0 y (ix2 t u) = y (ix1 t) :=
  broadcastInDim_apply _ bcast_S4096_S4096x1_0 y (ix2 t u) (ix1 t) (fun a => match a with
    | ⟨0, _⟩ => by show t.val = if (4096 : Nat) = 1 then 0 else t.val; rw [if_neg (by decide)])

/-- A [1, 64] row repeated down the 4096 rows. -/
theorem rows_of_row (y : S1x64.Idx → α) (t : Fin 4096) (r : Fin 64) :
    broadcastInDim S4096x64 ![0, 1] bcast_S1x64_S4096x64_0_1 y (ix2 t r) = y (ix2 (0 : Fin 1) r) :=
  broadcastInDim_apply _ bcast_S1x64_S4096x64_0_1 y (ix2 t r) (ix2 (0 : Fin 1) r) (fun a => match a with
    | ⟨0, _⟩ => by show 0 = if (1 : Nat) = 1 then 0 else t.val; rw [if_pos rfl]
    | ⟨1, _⟩ => by show r.val = if (64 : Nat) = 1 then 0 else r.val; rw [if_neg (by decide)])

/-- A [4096, 1] column repeated across the 64 columns. -/
theorem cols_of_col (y : S4096x1.Idx → α) (t : Fin 4096) (r : Fin 64) :
    broadcastInDim S4096x64 ![0, 1] bcast_S4096x1_S4096x64_0_1 y (ix2 t r) = y (ix2 t (0 : Fin 1)) :=
  broadcastInDim_apply _ bcast_S4096x1_S4096x64_0_1 y (ix2 t r) (ix2 t (0 : Fin 1)) (fun a => match a with
    | ⟨0, _⟩ => by show t.val = if (4096 : Nat) = 1 then 0 else t.val; rw [if_neg (by decide)]
    | ⟨1, _⟩ => by show 0 = if (1 : Nat) = 1 then 0 else r.val; rw [if_pos rfl])

end Broadcasts

/-! ## The tables as functions of the arguments -/

/-- The host's decay table. -/
def decayTable (a : Row F) (j : Offs) : S4096x64.Idx → F .f32 :=
  Host.exp (mulf (broadcastInDim S4096x64 ![0, 1] bcast_S1x64_S4096x64_0_1 (Host.negf (broadcastInDim S1x64 ![1] bcast_S64_S1x64_1 (Host.absf a))))
    (broadcastInDim S4096x64 ![0, 1] bcast_S4096x1_S4096x64_0_1 (broadcastInDim S4096x1 ![0] bcast_S4096_S4096x1_0 (sitofp .f32 j))))

/-- The host's angle table. -/
def thetaTable (b : Row F) (j : Offs) : S4096x64.Idx → F .f32 :=
  mulf (broadcastInDim S4096x64 ![0, 1] bcast_S1x64_S4096x64_0_1 (broadcastInDim S1x64 ![1] bcast_S64_S1x64_1 b))
    (broadcastInDim S4096x64 ![0, 1] bcast_S4096x1_S4096x64_0_1 (broadcastInDim S4096x1 ![0] bcast_S4096_S4096x1_0 (sitofp .f32 j)))

/-- The decay table at (t, r). -/
theorem decayTable_apply (a : Row F) (j : Offs) (t : Fin 4096) (r : Fin 64) :
    decayTable a j (ix2 t r) = decay a j t r := by
  have hX : broadcastInDim S4096x64 ![0, 1] bcast_S1x64_S4096x64_0_1
        (Host.negf (broadcastInDim S1x64 ![1] bcast_S64_S1x64_1 (Host.absf a))) (ix2 t r)
      = FloatOps.hostNegf (FloatOps.hostAbsf (a (ix1 r))) :=
    (rows_of_row _ t r).trans (congrArg FloatOps.hostNegf (row_of_vec (Host.absf a) 0 r))
  have hY : broadcastInDim S4096x64 ![0, 1] bcast_S4096x1_S4096x64_0_1
        (broadcastInDim S4096x1 ![0] bcast_S4096_S4096x1_0 (sitofp (F := F) .f32 j)) (ix2 t r) = tau j t :=
    (cols_of_col _ t r).trans (col_of_vec (sitofp (F := F) .f32 j) t 0)
  exact congrArg (FloatOps.hostUnary .exp) (congrArg₂ FloatOps.mulf hX hY)

/-- The angle table at (t, c). -/
theorem thetaTable_apply (b : Row F) (j : Offs) (t : Fin 4096) (c : Fin 64) :
    thetaTable b j (ix2 t c) = theta b j t c := by
  have hX : broadcastInDim S4096x64 ![0, 1] bcast_S1x64_S4096x64_0_1
        (broadcastInDim S1x64 ![1] bcast_S64_S1x64_1 b) (ix2 t c) = b (ix1 c) :=
    (rows_of_row _ t c).trans (row_of_vec b 0 c)
  have hY : broadcastInDim S4096x64 ![0, 1] bcast_S4096x1_S4096x64_0_1
        (broadcastInDim S4096x1 ![0] bcast_S4096_S4096x1_0 (sitofp (F := F) .f32 j)) (ix2 t c) = tau j t :=
    (cols_of_col _ t c).trans (col_of_vec (sitofp (F := F) .f32 j) t 0)
  exact congrArg₂ FloatOps.mulf hX hY

/-! ## What the launch finds in the three table buffers -/

variable (m : (ℓ : Loc nD τ sig) → Buf (Elt F) ℓ)

/-- The buffer of the fifth operand holds the decay table of the arguments. -/
theorem V_decay (c : Dev nD) : (V m c main_v8 : S4096x64.Idx → F .f32)
    = decayTable (m ((c : Thread nD τ).loc main_arg4)) (m ((c : Thread nD τ).loc main_arg7)) := by
  show StableHlo.after hostOps0 (fun b => m (c, b)) (Proc.devRef .tc main_v8) = _
  after_results
  rfl

/-- The buffer of the sixth operand holds the cosines of the angle table. -/
theorem V_cos (c : Dev nD) : (V m c main_v14 : S4096x64.Idx → F .f32)
    = Host.cos (thetaTable (m ((c : Thread nD τ).loc main_arg5)) (m ((c : Thread nD τ).loc main_arg7))) := by
  show StableHlo.after hostOps0 (fun b => m (c, b)) (Proc.devRef .tc main_v14) = _
  after_results
  rfl

/-- The buffer of the seventh operand holds the sines of the angle table. -/
theorem V_sin (c : Dev nD) : (V m c main_v15 : S4096x64.Idx → F .f32)
    = Host.sin (thetaTable (m ((c : Thread nD τ).loc main_arg5)) (m ((c : Thread nD τ).loc main_arg7))) := by
  show StableHlo.after hostOps0 (fun b => m (c, b)) (Proc.devRef .tc main_v15) = _
  after_results
  rfl

/-- The decay buffer at (t, r). -/
theorem V_decay_apply (c : Dev nD) (t : Fin 4096) (r : Fin 64) :
    (V m c main_v8 : S4096x64.Idx → F .f32) (ix2 t r)
      = decay (m ((c : Thread nD τ).loc main_arg4)) (m ((c : Thread nD τ).loc main_arg7)) t r := by
  rw [V_decay, decayTable_apply]

/-- The cosine buffer at (t, k). -/
theorem V_cos_apply (c : Dev nD) (t : Fin 4096) (k : Fin 64) :
    (V m c main_v14 : S4096x64.Idx → F .f32) (ix2 t k)
      = FloatOps.hostUnary .cos (theta (m ((c : Thread nD τ).loc main_arg5)) (m ((c : Thread nD τ).loc main_arg7)) t k) := by
  rw [V_cos]
  show FloatOps.hostUnary .cos (thetaTable _ _ (ix2 t k)) = _
  rw [thetaTable_apply]

/-- The sine buffer at (t, k). -/
theorem V_sin_apply (c : Dev nD) (t : Fin 4096) (k : Fin 64) :
    (V m c main_v15 : S4096x64.Idx → F .f32) (ix2 t k)
      = FloatOps.hostUnary .sin (theta (m ((c : Thread nD τ).loc main_arg5)) (m ((c : Thread nD τ).loc main_arg7)) t k) := by
  rw [V_sin]
  show FloatOps.hostUnary .sin (thetaTable _ _ (ix2 t k)) = _
  rw [thetaTable_apply]

end Cert.KernelHost

end
-- ==== Proof.KernelBlocks.lean ====
/-
  From the blocks the grid points write to the whole fused array.

  Grid point t handles the 64 time rows 64·t … 64·t + 63: every operand's window is its block number t along the time
  axis (all other axes whole), and so is the output's. What point t writes back is therefore the block of ONE array —
  the specification's interleaved [4096, 64, 128] array of the arguments — and the 64 blocks tile that array, so after
  the launch the output buffer holds it.
-/
import proofs.«132023_j47665547051502_2_alg».proof.Proof.Gen.KernelIdeal.Frame
import proofs.«132023_j47665547051502_2_alg».proof.Proof.KernelPoint
import proofs.«132023_j47665547051502_2_alg».proof.Proof.KernelHost
import proofs.«132023_j47665547051502_2_alg».proof.Proof.Spec
import Idealize.ShloMosaic.Lib.Pipeline.Value

noncomputable section

namespace Cert.KernelBlocks

open Idealize.ShloMosaic Idealize.ShloMosaic.TcCoe Idealize.ShloMosaic.ValueIdx Idealize.SL.Sem
open Idealize.ShloMosaic.Pipeline (Dat)
open Cert.KernelIdeal Cert.KernelIdeal.Gen Cert.Spec Cert.KernelPoint Cert.KernelHost

variable {F : FTy → Type} [FloatOps F]
variable (m : (ℓ : Loc nD τ sig) → Buf (Elt F) ℓ)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The fused array of the arguments: the specification's interleaved array. -/
def fused (c : Dev nD) : S4096x64x128.Idx → F .f32 :=
  interleaved (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg7))

/-! ## The windows' block numbers, decided over the 64 grid points -/

/-- The output's block number is below 64 along the time axis and 0 along the other two. -/
theorem out_index : ∀ t : Fin cfg0.N, win0_7.index t (0 : Fin 3) < 64 ∧ win0_7.index t (1 : Fin 3) = 0 ∧ win0_7.index t (2 : Fin 3) = 0 :=
  (by decide +kernel : ∀ t : Fin grid0.N, _)
/-- Each [4096, 64, 64] operand's block number is the output's along the time axis and 0 along the other two. -/
theorem in_index0 : ∀ t : Fin cfg0.N, win0_0.index t (0 : Fin 3) = win0_7.index t (0 : Fin 3) ∧ win0_0.index t (1 : Fin 3) = 0 ∧ win0_0.index t (2 : Fin 3) = 0 :=
  (by decide +kernel : ∀ t : Fin grid0.N, _)
theorem in_index1 : ∀ t : Fin cfg0.N, win0_1.index t (0 : Fin 3) = win0_7.index t (0 : Fin 3) ∧ win0_1.index t (1 : Fin 3) = 0 ∧ win0_1.index t (2 : Fin 3) = 0 :=
  (by decide +kernel : ∀ t : Fin grid0.N, _)
theorem in_index2 : ∀ t : Fin cfg0.N, win0_2.index t (0 : Fin 3) = win0_7.index t (0 : Fin 3) ∧ win0_2.index t (1 : Fin 3) = 0 ∧ win0_2.index t (2 : Fin 3) = 0 :=
  (by decide +kernel : ∀ t : Fin grid0.N, _)
theorem in_index3 : ∀ t : Fin cfg0.N, win0_3.index t (0 : Fin 3) = win0_7.index t (0 : Fin 3) ∧ win0_3.index t (1 : Fin 3) = 0 ∧ win0_3.index t (2 : Fin 3) = 0 :=
  (by decide +kernel : ∀ t : Fin grid0.N, _)
/-- Each [4096, 64] table's block number is the output's along the time axis and 0 along the other. -/
theorem in_index4 : ∀ t : Fin cfg0.N, win0_4.index t (0 : Fin 2) = win0_7.index t (0 : Fin 3) ∧ win0_4.index t (1 : Fin 2) = 0 :=
  (by decide +kernel : ∀ t : Fin grid0.N, _)
theorem in_index5 : ∀ t : Fin cfg0.N, win0_5.index t (0 : Fin 2) = win0_7.index t (0 : Fin 3) ∧ win0_5.index t (1 : Fin 2) = 0 :=
  (by decide +kernel : ∀ t : Fin grid0.N, _)
theorem in_index6 : ∀ t : Fin cfg0.N, win0_6.index t (0 : Fin 2) = win0_7.index t (0 : Fin 3) ∧ win0_6.index t (1 : Fin 2) = 0 :=
  (by decide +kernel : ∀ t : Fin grid0.N, _)
/-- Every block number 0 … 63 along the time axis is some point's. -/
theorem out_onto : ∀ q0 : Fin 64, ∃ t : Fin cfg0.N, win0_7.index t = ![q0.val, 0, 0] :=
  (by decide +kernel : ∀ q0 : Fin 64, ∃ t : Fin grid0.N, win0_7.index t = ![q0.val, 0, 0])

/-! ## Each operand's block at a point, read in the whole array

`T` is the time row that position `q` of point `t`'s block stands for: 64 · (the block number) + q. -/

theorem block0 (c : Dev nD) (t : Fin cfg0.N) (q r k : Fin 64) (T : Fin 4096) (hT : T.val = win0_7.index t (0 : Fin 3) * 64 + q.val) :
    iblk m c 0 t (ix3 q r k) = m ((c : Thread nD τ).loc main_arg0) (ix3 T r k) := by
  obtain ⟨e0, e1, e2⟩ := in_index0 t
  refine Eq.trans ?_ (congrFun (V_main_arg0 m c) (ix3 T r k))
  show V m c main_arg0 (((cfg0.win 0).blk t).view.emb (ix3 q r k)) = V m c main_arg0 (ix3 T r k)
  refine congrArg (V m c main_arg0) (funext fun a => Fin.ext ?_)
  match a with
  | ⟨0, _⟩ => show win0_0.index t (0 : Fin 3) * 64 + 1 * q.val = T.val; omega
  | ⟨1, _⟩ => show win0_0.index t (1 : Fin 3) * 64 + 1 * r.val = r.val; omega
  | ⟨2, _⟩ => show win0_0.index t (2 : Fin 3) * 64 + 1 * k.val = k.val; omega

theorem block1 (c : Dev nD) (t : Fin cfg0.N) (q r k : Fin 64) (T : Fin 4096) (hT : T.val = win0_7.index t (0 : Fin 3) * 64 + q.val) :
    iblk m c 1 t (ix3 q r k) = m ((c : Thread nD τ).loc main_arg1) (ix3 T r k) := by
  obtain ⟨e0, e1, e2⟩ := in_index1 t
  refine Eq.trans ?_ (congrFun (V_main_arg1 m c) (ix3 T r k))
  show V m c main_arg1 (((cfg0.win 1).blk t).view.emb (ix3 q r k)) = V m c main_arg1 (ix3 T r k)
  refine congrArg (V m c main_arg1) (funext fun a => Fin.ext ?_)
  match a with
  | ⟨0, _⟩ => show win0_1.index t (0 : Fin 3) * 64 + 1 * q.val = T.val; omega
  | ⟨1, _⟩ => show win0_1.index t (1 : Fin 3) * 64 + 1 * r.val = r.val; omega
  | ⟨2, _⟩ => show win0_1.index t (2 : Fin 3) * 64 + 1 * k.val = k.val; omega

theorem block2 (c : Dev nD) (t : Fin cfg0.N) (q r k : Fin 64) (T : Fin 4096) (hT : T.val = win0_7.index t (0 : Fin 3) * 64 + q.val) :
    iblk m c 2 t (ix3 q r k) = m ((c : Thread nD τ).loc main_arg2) (ix3 T r k) := by
  obtain ⟨e0, e1, e2⟩ := in_index2 t
  refine Eq.trans ?_ (congrFun (V_main_arg2 m c) (ix3 T r k))
  show V m c main_arg2 (((cfg0.win 2).blk t).view.emb (ix3 q r k)) = V m c main_arg2 (ix3 T r k)
  refine congrArg (V m c main_arg2) (funext fun a => Fin.ext ?_)
  match a with
  | ⟨0, _⟩ => show win0_2.index t (0 : Fin 3) * 64 + 1 * q.val = T.val; omega
  | ⟨1, _⟩ => show win0_2.index t (1 : Fin 3) * 64 + 1 * r.val = r.val; omega
  | ⟨2, _⟩ => show win0_2.index t (2 : Fin 3) * 64 + 1 * k.val = k.val; omega

theorem block3 (c : Dev nD) (t : Fin cfg0.N) (q r k : Fin 64) (T : Fin 4096) (hT : T.val = win0_7.index t (0 : Fin 3) * 64 + q.val) :
    iblk m c 3 t (ix3 q r k) = m ((c : Thread nD τ).loc main_arg3) (ix3 T r k) := by
  obtain ⟨e0, e1, e2⟩ := in_index3 t
  refine Eq.trans ?_ (congrFun (V_main_arg3 m c) (ix3 T r k))
  show V m c main_arg3 (((cfg0.win 3).blk t).view.emb (ix3 q r k)) = V m c main_arg3 (ix3 T r k)
  refine congrArg (V m c main_arg3) (funext fun a => Fin.ext ?_)
  match a with
  | ⟨0, _⟩ => show win0_3.index t (0 : Fin 3) * 64 + 1 * q.val = T.val; omega
  | ⟨1, _⟩ => show win0_3.index t (1 : Fin 3) * 64 + 1 * r.val = r.val; omega
  | ⟨2, _⟩ => show win0_3.index t (2 : Fin 3) * 64 + 1 * k.val = k.val; omega

theorem block4 (c : Dev nD) (t : Fin cfg0.N) (q r : Fin 64) (T : Fin 4096) (hT : T.val = win0_7.index t (0 : Fin 3) * 64 + q.val) :
    iblk m c 4 t (ix2 q r) = (V m c main_v8 : S4096x64.Idx → F .f32) (ix2 T r) := by
  obtain ⟨e0, e1⟩ := in_index4 t
  show V m c main_v8 (((cfg0.win 4).blk t).view.emb (ix2 q r)) = V m c main_v8 (ix2 T r)
  refine congrArg (V m c main_v8) (funext fun a => Fin.ext ?_)
  match a with
  | ⟨0, _⟩ => show win0_4.index t (0 : Fin 2) * 64 + 1 * q.val = T.val; omega
  | ⟨1, _⟩ => show win0_4.index t (1 : Fin 2) * 64 + 1 * r.val = r.val; omega

theorem block5 (c : Dev nD) (t : Fin cfg0.N) (q r : Fin 64) (T : Fin 4096) (hT : T.val = win0_7.index t (0 : Fin 3) * 64 + q.val) :
    iblk m c 5 t (ix2 q r) = (V m c main_v14 : S4096x64.Idx → F .f32) (ix2 T r) := by
  obtain ⟨e0, e1⟩ := in_index5 t
  show V m c main_v14 (((cfg0.win 5).blk t).view.emb (ix2 q r)) = V m c main_v14 (ix2 T r)
  refine congrArg (V m c main_v14) (funext fun a => Fin.ext ?_)
  match a with
  | ⟨0, _⟩ => show win0_5.index t (0 : Fin 2) * 64 + 1 * q.val = T.val; omega
  | ⟨1, _⟩ => show win0_5.index t (1 : Fin 2) * 64 + 1 * r.val = r.val; omega

theorem block6 (c : Dev nD) (t : Fin cfg0.N) (q r : Fin 64) (T : Fin 4096) (hT : T.val = win0_7.index t (0 : Fin 3) * 64 + q.val) :
    iblk m c 6 t (ix2 q r) = (V m c main_v15 : S4096x64.Idx → F .f32) (ix2 T r) := by
  obtain ⟨e0, e1⟩ := in_index6 t
  show V m c main_v15 (((cfg0.win 6).blk t).view.emb (ix2 q r)) = V m c main_v15 (ix2 T r)
  refine congrArg (V m c main_v15) (funext fun a => Fin.ext ?_)
  match a with
  | ⟨0, _⟩ => show win0_6.index t (0 : Fin 2) * 64 + 1 * q.val = T.val; omega
  | ⟨1, _⟩ => show win0_6.index t (1 : Fin 2) * 64 + 1 * r.val = r.val; omega

/-- Where position (q, r, l) of point `t`'s output block sits in the fused array. -/
theorem out_emb (t : Fin cfg0.N) (q r : Fin 64) (l : Fin 128) (T : Fin 4096) (hT : T.val = win0_7.index t (0 : Fin 3) * 64 + q.val) :
    ((cfg0.win 7).blk t).view.emb (ix3 q r l) = (ix3 T r l : S4096x64x128.Idx) := by
  obtain ⟨e0, e1, e2⟩ := out_index t
  refine funext fun a => Fin.ext ?_
  match a with
  | ⟨0, _⟩ => show win0_7.index t (0 : Fin 3) * 64 + 1 * q.val = T.val; omega
  | ⟨1, _⟩ => show win0_7.index t (1 : Fin 3) * 64 + 1 * r.val = r.val; omega
  | ⟨2, _⟩ => show win0_7.index t (2 : Fin 3) * 128 + 1 * l.val = l.val; omega

/-! ## What a point writes back, and the array after the launch -/

/-- WHAT POINT `t` WRITES BACK is block `t` of the fused array of the arguments. -/
theorem flushed_eq (c : Dev nD) (t : Fin cfg0.N) :
    (dats m 0 c).flushed 7 t = ((cfg0.win 7).blk t).view.read (Elt F) (fused m c) := by
  show (cfg0.win 7).cut (grid0.coords t) ((dats m 0 c).after 7 t) = _
  rw [after0_7]
  unfold out0_7
  rw [View.canon_unit_zero zeros3]
  simp only [View.ld_unit_zero (S := S64x64) zeros2, View.ld_unit_zero (S := S64x64x64) zeros3]
  funext y
  obtain ⟨q, r, l, rfl⟩ : ∃ (q r : Fin 64) (l : Fin 128), y = ix3 q r l := ⟨y 0, y 1, y 2, eq_ix3 y⟩
  obtain ⟨f0, f1, f2⟩ := out_index t
  obtain ⟨T, hT⟩ : ∃ T : Fin 4096, T.val = win0_7.index t (0 : Fin 3) * 64 + q.val := ⟨⟨_, by omega⟩, rfl⟩
  obtain ⟨k, hk⟩ : ∃ k : Fin 64, k.val = l.val / 2 := ⟨⟨_, by omega⟩, rfl⟩
  obtain ⟨p, hp⟩ : ∃ p : Fin 2, p.val = l.val % 2 := ⟨⟨_, Nat.mod_lt _ (by decide)⟩, rfl⟩
  have hl : l.val = k.val * 2 + p.val := by omega
  show k0_pay1 (iblk m c 4 t) (iblk m c 5 t) (iblk m c 6 t) (iblk m c 0 t) (iblk m c 1 t) (iblk m c 2 t) (iblk m c 3 t) (ix3 q r l)
    = fused m c (((cfg0.win 7).blk t).view.emb (ix3 q r l))
  rw [out_emb t q r l T hT]
  refine (pay_apply (iblk m c 4 t) (iblk m c 5 t) (iblk m c 6 t) (iblk m c 0 t) (iblk m c 1 t) (iblk m c 2 t) (iblk m c 3 t) q r k p l hl).trans ?_
  refine (tilePart_eq (iblk m c 4 t) (iblk m c 5 t) (iblk m c 6 t) (iblk m c 0 t) (iblk m c 1 t) (iblk m c 2 t) (iblk m c 3 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg7)) T q r k p ?_ ?_ ?_ ?_ ?_ ?_ ?_).trans ?_
  · exact (block4 m c t q r T hT).trans (V_decay_apply m c T r)
  · exact (block5 m c t q k T hT).trans (V_cos_apply m c T k)
  · exact (block6 m c t q k T hT).trans (V_sin_apply m c T k)
  · exact block0 m c t q r k T hT
  · exact block1 m c t q r k T hT
  · exact block2 m c t q r k T hT
  · exact block3 m c t q r k T hT
  · exact (interleaved_apply _ _ _ _ _ _ _ T r k p l hl).symm

/-- An index of the fused array is in point `t`'s block iff each coordinate is in the block's range on its axis. -/
theorem mem_block (t : Fin cfg0.N) (i : S4096x64x128.Idx) :
    i ∈ ((cfg0.win 7).blk t).view.set ↔ ∀ a : Fin 3, win0_7.index t a * S64x64x128.size a ≤ (i a).val ∧ (i a).val < win0_7.index t a * S64x64x128.size a + S64x64x128.size a := by
  show i ∈ ((View.whole main_v16).slice (win0_7.rect t)).set ↔ _
  rw [View.set_slice_whole, Rect.mem_set_unit]
  exact Iff.rfl

/-- THE BLOCKS TILE THE ARRAY: time row T lies in the block of the point whose block number is T / 64. -/
theorem cover (i : S4096x64x128.Idx) :
    ∃ t : Fin cfg0.N, (cfg0.win 7).flush t = true ∧ i ∈ ((cfg0.win 7).blk t).view.set := by
  have hi0 : (i 0).val < 4096 := (i 0).isLt
  have hi1 : (i 1).val < 64 := (i 1).isLt
  have hi2 : (i 2).val < 128 := (i 2).isLt
  obtain ⟨t, ht⟩ := out_onto ⟨(i 0).val / 64, by omega⟩
  have q0 : win0_7.index t (0 : Fin 3) = (i 0).val / 64 := congrFun ht 0
  have q1 : win0_7.index t (1 : Fin 3) = 0 := congrFun ht 1
  have q2 : win0_7.index t (2 : Fin 3) = 0 := congrFun ht 2
  refine ⟨t, flush0_7 t, ?_⟩
  rw [mem_block]
  intro a
  match a with
  | ⟨0, _⟩ => show win0_7.index t (0 : Fin 3) * 64 ≤ (i 0).val ∧ (i 0).val < win0_7.index t (0 : Fin 3) * 64 + 64; omega
  | ⟨1, _⟩ => show win0_7.index t (1 : Fin 3) * 64 ≤ (i 1).val ∧ (i 1).val < win0_7.index t (1 : Fin 3) * 64 + 64; omega
  | ⟨2, _⟩ => show win0_7.index t (2 : Fin 3) * 128 ≤ (i 2).val ∧ (i 2).val < win0_7.index t (2 : Fin 3) * 128 + 128; omega

/-- THE OUTPUT BUFFER AFTER THE LAUNCH holds the fused array of the arguments. -/
theorem final (c : Dev nD) : (dats m 0 c).arrAt 7 cfg0.N = fused m c :=
  (dats m 0 c).arrAt_eq_of_cover 7 (fused m c) (fun t _ => flushed_eq m c t) cover

end Cert.KernelBlocks

end
-- ==== Proof.KernelTail.lean ====
/-
  The kernel program's two results.

  After the launch the host splits the fused [4096, 64, 128] array's last axis into (context, component): entry
  (t, r, c, p) of the result reads position 2c + p of the fused array's last axis, which holds component p at context
  c — the specification's stacked array. The second result is the integer sum of the two counters, computed on the
  host from the arguments alone. The arguments end as they were launched.
-/
import proofs.«132023_j47665547051502_2_alg».proof.Proof.Gen.KernelIdeal.Frame
import proofs.«132023_j47665547051502_2_alg».proof.Proof.KernelBlocks
import proofs.«132023_j47665547051502_2_alg».proof.Proof.LibStackLast
import proofs.«132023_j47665547051502_2_alg».proof.Proof.Spec
import Idealize.ShloMosaic.Lib.Pipeline.Value
import Idealize.ShloMosaic.Lib.StableHlo.Run

noncomputable section

namespace Cert.KernelTail

open Idealize.ShloMosaic Idealize.ShloMosaic.TcCoe Idealize.ShloMosaic.ValueIdx Idealize.SL.Sem Idealize.ShloMosaic.StableHlo
open Cert.KernelIdeal Cert.KernelIdeal.Gen Cert.Spec Cert.KernelBlocks

variable {F : FTy → Type} [FloatOps F]
variable (m : (ℓ : Loc nD τ sig) → Buf (Elt F) ℓ) (ρ : Dev nD → PrngReg)

/-- The new state of the arguments: the specification's stacked array. -/
def newState (c : Dev nD) : S4096x64x64x2.Idx → F .f32 :=
  stacked (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg7))

/-- The new counter of the arguments. -/
def newCounter (c : Dev nD) : S4096.Idx → BitVec 32 :=
  addi (m ((c.tc : Thread nD τ).loc main_arg7)) (m ((c.tc : Thread nD τ).loc main_arg6))

/-- The first result: the fused array of the launch with its last axis split is the stacked array. -/
theorem tail_state (c : Dev nD) :
    Pipeline.afterTail₀ cfgs (dats m) 0 (V0 m) [hostOps1] c main_v17 = newState m c := by
  have hw : Pipeline.withArrays (cfgs 0).spec c (V0 m c) (fun w => (dats m 0 c).arrAt w (cfgs 0).N) (Proc.devRef .tc main_v16)
      = fused m c :=
    (Pipeline.withArrays_arr spec0 launch0.win.arr_inj c _ _ 7).trans (final m c)
  unfold Pipeline.afterTail₀
  show StableHlo.after hostOps1 _ (Proc.devRef .tc main_v17) = _
  after_results
  rw [hw]
  funext i
  obtain ⟨t, r, k, p, rfl⟩ : ∃ (t : Fin 4096) (r k : Fin 64) (p : Fin 2), i = ix4 t r k p := ⟨i 0, i 1, i 2, i 3, eq_ix4 i⟩
  obtain ⟨l, hl⟩ : ∃ l : Fin 128, l.val = k.val * 2 + p.val := ⟨⟨_, by omega⟩, rfl⟩
  show shapeCast S4096x64x64x2 (fused m c) shapeCasts_S4096x64x128_S4096x64x64x2 (ix4 t r k p) = _
  refine (Cert.LibStackLast.shapeCast_abn_abc2_apply (a := 4096) (b := 64) (c := 64) (n := 128) _ _ (by rfl) t r k p l hl).trans ?_
  exact interleaved_apply _ _ _ _ _ _ _ t r k p l hl

/-- The second result: the sum of the two counters as launched. -/
theorem tail_counter (c : Dev nD) :
    Pipeline.afterTail₀ cfgs (dats m) 0 (V0 m) [hostOps1] c main_v18 = newCounter m c := by
  unfold Pipeline.afterTail₀
  show StableHlo.after hostOps1 _ (Proc.devRef .tc main_v18) = _
  after_results
  rw [Pipeline.withArrays_of_ne _ c (V0 m c) _ main_arg7 (by exact (by decide : ∀ w, Pipeline.arrRef spec0 w ≠ main_arg7)),
    Pipeline.withArrays_of_ne _ c (V0 m c) _ main_arg6 (by exact (by decide : ∀ w, Pipeline.arrRef spec0 w ≠ main_arg6))]
  exact congrArg₂ addi (V_main_arg7 m c) (V_main_arg6 m c)

/-- THE KERNEL PROGRAM'S RUN: every weakly fair execution terminates with the two results at the specification's
    values of the arguments and the arguments unchanged. -/
theorem run : θ_run defs (onTc (τ := τ) (main (F := F))) ⟨m, fun _ => 0, ρ⟩ fun r => ∀ c : Dev nD,
      r.2.mem ((c.tc : Thread nD τ).loc main_v17) = newState m c
      ∧ r.2.mem ((c.tc : Thread nD τ).loc main_v18) = newCounter m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v17 (Pipeline.mem_restRefs_of main_v17 (by decide) (by decide))).trans (tail_state m c),
      ((h c).2 main_v18 (Pipeline.mem_restRefs_of main_v18 (by decide) (by decide))).trans (tail_counter m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelTail

end
-- ==== Proof.lean ====
/-
  One damped-rotation step of a bank of complex states: the kernel program against its reference, over the
  extended reals.

  Both programs compute, for every time row t, trace r and context c,
      re' = (re · g_re − im · g_im) + x_re,      im' = (re · g_im + im · g_re) + x_im,
  with g_re = exp((−|a r|) · τ_t) · cos(b c · τ_t) and g_im the same with sin, and return (re', im') stacked along a new
  last axis together with the integer sum of the two counters. They apply the SAME float operations in the same order
  and grouping; they differ only in layout. The reference broadcasts everything to three axes and stacks at the end.
  The kernel program prepares the decay, cos and sin tables on [4096, 64] on the host, runs 64 grid points of 64 time
  rows each, each of which spreads its table tiles over the missing axis, does the multiply-add and writes an
  interleaved (re', im', re', im', …) block of a [4096, 64, 128] array, and finally splits that array's last axis.
  So no algebraic law and no finiteness is needed: the proof reads both programs index by index down to one shared
  specification (Proof/Spec.lean).

  The three frames: the two kernel programs' are the generated frame certificates; the reference's is its generated
  run with the results dropped. The idealization rewrote nothing, so `preserves` is trivial.
-/
import proofs.«132023_j47665547051502_2_alg».proof.Defs
import proofs.«132023_j47665547051502_2_alg».proof.Proof.Gen.Kernel
import proofs.«132023_j47665547051502_2_alg».proof.Proof.Gen.Kernel.Skeleton
import proofs.«132023_j47665547051502_2_alg».proof.Proof.Gen.Kernel.Launch
import proofs.«132023_j47665547051502_2_alg».proof.Proof.Gen.Kernel.Points
import proofs.«132023_j47665547051502_2_alg».proof.Proof.Gen.Kernel.Frame
import proofs.«132023_j47665547051502_2_alg».proof.Proof.Gen.KernelIdeal
import proofs.«132023_j47665547051502_2_alg».proof.Proof.Gen.KernelIdeal.Skeleton
import proofs.«132023_j47665547051502_2_alg».proof.Proof.Gen.KernelIdeal.Launch
import proofs.«132023_j47665547051502_2_alg».proof.Proof.Gen.KernelIdeal.Points
import proofs.«132023_j47665547051502_2_alg».proof.Proof.Gen.KernelIdeal.Frame
import proofs.«132023_j47665547051502_2_alg».proof.Proof.Gen.ReferenceIdeal
import proofs.«132023_j47665547051502_2_alg».proof.Proof.Gen.ReferenceIdeal.Run
import proofs.«132023_j47665547051502_2_alg».proof.Proof.Gen.ReferenceIdeal.Read
import proofs.«132023_j47665547051502_2_alg».proof.Proof.Gen.Pre_finite_inputs
import proofs.«132023_j47665547051502_2_alg».proof.Proof.RefIsSpec
import proofs.«132023_j47665547051502_2_alg».proof.Proof.KernelTail
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on the arguments both idealized programs end with the specification's stacked array of
    the arguments and the sum of the two counters: the kernel program by its run read through the launch
    (`KernelTail.run`), the reference by its generated run read one operation at a time (`RefIsSpec.result_eq`). -/
theorem algebraic : Cert.algebraic_KernelIdeal_ReferenceIdeal := by
  intro m ρ m' ρ' _ hagree
  refine ⟨fun c => Cert.KernelTail.newState (F := Ideal) m c, fun c => Cert.KernelTail.newCounter (F := Ideal) m c,
    Cert.KernelTail.run (F := Ideal) m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, _, a7⟩ := hagree c
    rw [(h c).1, Cert.ReferenceIdeal.Read.val_main_v31_eq, Cert.RefIsSpec.result_eq, a0, a1, a2, a3, a4, a5, a7]
    rfl
  · obtain ⟨_, _, _, _, _, _, a6, a7⟩ := hagree c
    rw [(h c).2.1, a6, a7]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
